-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel

variable [Facts]

def fn {F : FTy → Type} [FloatOps F] (main_arg0 : FVec F S16x8192x64 .f32) (main_arg1 : FVec F S16x8192x64 .f32) (main_arg2 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  main_v13
-- ==== Kernel.lean ====
abbrev S16x8192x64 : Shape := ⟨3, ![16, 8192, 64]⟩
abbrev S16x4096x128 : Shape := ⟨3, ![16, 4096, 128]⟩
abbrev S1x4096x128 : Shape := ⟨3, ![1, 4096, 128]⟩
abbrev S128x128 : Shape := ⟨2, ![128, 128]⟩
abbrev S1x1024x128 : Shape := ⟨3, ![1, 1024, 128]⟩
abbrev S1024x128 : Shape := ⟨2, ![1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x4096x128, .f32⟩
  | .hbm, ⟨4, _⟩ => ⟨S16x4096x128, .f32⟩
  | .hbm, ⟨5, _⟩ => ⟨S16x4096x128, .f32⟩
  | .hbm, ⟨6, _⟩ => ⟨S16x4096x128, .f32⟩
  | .hbm, ⟨7, _⟩ => ⟨S16x8192x64, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x64_S16x4096x128 : S16x8192x64.ShapeCasts S16x4096x128
  inb_S1x4096x128_S1x1024x128_0_0_0 : ∀ a, (![0, 0, 0] : Fin 3 → Nat) a + S1x1024x128.size a ≤ S1x4096x128.size a
  h_S1x1024x128 : 0 < S1x1024x128.numel
  shapeCasts_S1x1024x128_S1024x128 : S1x1024x128.ShapeCasts S1024x128
  inb_S1x4096x128_S1x1024x128_0_1024_0 : ∀ a, (![0, 1024, 0] : Fin 3 → Nat) a + S1x1024x128.size a ≤ S1x4096x128.size a
  inb_S1x4096x128_S1x1024x128_0_2048_0 : ∀ a, (![0, 2048, 0] : Fin 3 → Nat) a + S1x1024x128.size a ≤ S1x4096x128.size a
  inb_S1x4096x128_S1x1024x128_0_3072_0 : ∀ a, (![0, 3072, 0] : Fin 3 → Nat) a + S1x1024x128.size a ≤ S1x4096x128.size a
  rotates_S128x128_d0 : S128x128.Rotates 0 none
  rotates_S128x128_d1 : S128x128.Rotates 1 none
  iota_S128x128_d0_w32 : S128x128.Iotas .tc 32 [0]
  natLt_1_32 : 1 < 32
  iota_S128x128_d1_w32 : S128x128.Iotas .tc 32 [1]
  shapeCasts_S1024x128_S1x1024x128 : S1024x128.ShapeCasts S1x1024x128
  shapeCasts_S16x4096x128_S16x8192x64 : S16x4096x128.ShapeCasts S16x8192x64
  dot_S1024x128_S1024x128_S128x128_0_0_1_1_n_n_wf : DotDims.WF S1024x128 S1024x128 S128x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .f32 = 32 ∨ (Rect.block (s := S16x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S16x4096x128.size a
  hwx0_2 : ∀ i : grid0.Coords, EltTy.bits .f32 = 32 ∨ (Rect.block (s := S16x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S16x4096x128.size a
  hwx0_3 : ∀ i : grid0.Coords, EltTy.bits .f32 = 32 ∨ (Rect.block (s := S16x4096x128) S1x4096x128.size (cc0_transform_3 i) (hinb0_3 i)).WholeWords (EltTy.packing .f32)

variable [Facts₀]

def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S_ : Shape := ⟨0, ![]⟩
abbrev S16x64x64 : Shape := ⟨3, ![16, 64, 64]⟩

abbrev nBuf : Space → Nat
  | .hbm => 30
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S_, .f32⟩
  | .hbm, ⟨4, _⟩ => ⟨S16x8192x64, .f32⟩
  | .hbm, ⟨5, _⟩ => ⟨S16x8192x64, .i1⟩
  | .hbm, ⟨6, _⟩ => ⟨S_, .f32⟩
  | .hbm, ⟨7, _⟩ => ⟨S16x8192x64, .f32⟩
  | .hbm, ⟨8, _⟩ => ⟨S16x8192x64, .f32⟩
  | .hbm, ⟨9, _⟩ => ⟨S_, .f32⟩
  | .hbm, ⟨10, _⟩ => ⟨S16x8192x64, .f32⟩
  | .hbm, ⟨11, _⟩ => ⟨S16x8192x64, .f32⟩
  | .hbm, ⟨12, _⟩ => ⟨S16x8192x64, .f32⟩
  | .hbm, ⟨13, _⟩ => ⟨S16x8192x64, .f32⟩
  | .hbm, ⟨14, _⟩ => ⟨S_, .f32⟩
  | .hbm, ⟨15, _⟩ => ⟨S16x8192x64, .f32⟩
  | .hbm, ⟨16, _⟩ => ⟨S16x8192x64, .i1⟩
  | .hbm, ⟨17, _⟩ => ⟨S_, .f32⟩
  | .hbm, ⟨18, _⟩ => ⟨S16x8192x64, .f32⟩
  | .hbm, ⟨19, _⟩ => ⟨S16x8192x64, .f32⟩
  | .hbm, ⟨20, _⟩ => ⟨S_, .f32⟩
  | .hbm, ⟨21, _⟩ => ⟨S16x8192x64, .f32⟩
  | .hbm, ⟨22, _⟩ => ⟨S16x8192x64, .f32⟩
  | .hbm, ⟨23, _⟩ => ⟨S16x8192x64, .f32⟩
  | .hbm, ⟨24, _⟩ => ⟨S16x8192x64, .f32⟩
  | .hbm, ⟨25, _⟩ => ⟨S16x64x64, .f32⟩
  | .hbm, ⟨26, _⟩ => ⟨S16x8192x64, .f32⟩
  | .hbm, ⟨27, _⟩ => ⟨S_, .f32⟩
  | .hbm, ⟨28, _⟩ => ⟨S16x8192x64, .f32⟩
  | .hbm, ⟨29, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S16x8192x64 : S_.BroadcastsInDim S16x8192x64 (![] : Fin 0 → Fin S16x8192x64.rank)
  dot_S16x8192x64_S16x8192x64_S16x64x64_1_1_2_2_0_0_wf : DotDims.WF S16x8192x64 S16x8192x64 S16x64x64 [1] [1] [2] [2] [0] [0]
  dot_S16x8192x64_S16x64x64_S16x8192x64_2_1_1_2_0_0_wf : DotDims.WF S16x8192x64 S16x64x64 S16x8192x64 [2] [1] [1] [2] [0] [0]

variable [Facts₀]

def dot_S16x8192x64_S16x8192x64_S16x64x64_1_1_2_2_0_0 : DotDims S16x8192x64 S16x8192x64 S16x64x64 where
  lhsContracting := [1]
  rhsContracting := [1]
  lhsNonContracting := [2]
  rhsNonContracting := [2]
  lhsBatch := [0]
  rhsBatch := [0]
  wf := dot_S16x8192x64_S16x8192x64_S16x64x64_1_1_2_2_0_0_wf
def dot_S16x8192x64_S16x64x64_S16x8192x64_2_1_1_2_0_0 : DotDims S16x8192x64 S16x64x64 S16x8192x64 where
  lhsContracting := [2]
  rhsContracting := [1]
  lhsNonContracting := [1]
  rhsNonContracting := [2]
  lhsBatch := [0]
  rhsBatch := [0]
  wf := dot_S16x8192x64_S16x64x64_S16x8192x64_2_1_1_2_0_0_wf

class Facts : Prop extends Facts₀ where

variable [Facts]
-- ==== Proof.Spec.lean ====
/-
  Linear attention with the feature map elu(x) + 1, as plain functions on the extended reals.

  The reference computes, per batch, kv(d, e) = Σ_n φ(k(n, d)) · v(n, e) over all 8192 rows and then
  out(n, e) = (Σ_d φ(q(n, d)) · kv(d, e)) / 524288. The kernel works on the PACKED layout, in which packed row n2
  of width 128 is row 2·n2 (lanes 0..63) followed by row 2·n2+1 (lanes 64..127): it accumulates the 128 × 128
  matrix A(i, j) = Σ_{n2} φ(K(n2, i)) · V(n2, j) in four chunks of 1024 packed rows, adds to it its own rotation by
  half a side along both axes, keeps the two diagonal 64 × 64 blocks, multiplies the packed φ(q) rows by the result
  and scales by 2^-19. This module states both sides; that they agree is the module Algebra.
-/
import Idealize.ShloMosaic.PureOps.Ideal
import Idealize.ShloMosaic.PureOps.Ideal.Laws
import Idealize.ShloMosaic.Lib.ValueIdx

noncomputable section

open scoped BigOperators

namespace Cert.LinAttn

open Idealize.ShloMosaic Idealize.ShloMosaic.ValueIdx

/-- The float zero, the scale 2^-19 the kernel multiplies by, and the divisor 2^19 of the reference, as the
    extended reals their words denote. -/
abbrev zeroF : Ideal .f32 := FloatOps.ofBits .f32 0x00000000#32
abbrev oneF : Ideal .f32 := FloatOps.ofBits .f32 0x3F800000#32
abbrev invDen : Ideal .f32 := FloatOps.ofBits .f32 0x36000000#32
abbrev den : Ideal .f32 := FloatOps.ofBits .f32 0x49000000#32

/-- The feature map elu(x) + 1: x + 1 above zero, exp(min(x, 0)) elsewhere. -/
def phi (x : Ideal .f32) : Ideal .f32 :=
  Scalar.select (FloatOps.cmpf .ogt x zeroF) (FloatOps.addf x oneF) (FloatOps.exp (FloatOps.minimumf x zeroF))

section Packed

variable (K V : Fin 4096 → Fin 128 → Ideal .f32)

/-- One chunk of 1024 packed rows, from row `off`, of the product Kᵀ · V with φ applied to K. -/
def chunkKV (off : Nat) (h : off + 1024 ≤ 4096) (i j : Fin 128) : Ideal .f32 :=
  ∑ r : Fin 1024, phi (K ⟨off + r.val, by omega⟩ i) * V ⟨off + r.val, by omega⟩ j

/-- The four chunks accumulated from zero, in the kernel's order. -/
def accKV (i j : Fin 128) : Ideal .f32 :=
  (((zeroF + chunkKV K V 0 (by decide) i j) + chunkKV K V 1024 (by decide) i j) + chunkKV K V 2048 (by decide) i j)
    + chunkKV K V 3072 (by decide) i j

/-- A coordinate moved by half a side around the end. -/
def rot64 (i : Fin 128) : Fin 128 := ⟨(i.val + 64) % 128, Nat.mod_lt _ (by decide)⟩

/-- The accumulated matrix plus its rotation by half a side along both axes, kept on the two diagonal blocks. -/
def bdKV (i j : Fin 128) : Ideal .f32 :=
  if i.val / 64 = j.val / 64 then accKV K V i j + accKV K V (rot64 i) (rot64 j) else zeroF

/-- One packed output row: the packed φ(q) row times the block-diagonal matrix, scaled. -/
def rowOut (Q : Fin 128 → Ideal .f32) (j : Fin 128) : Ideal .f32 :=
  (∑ i : Fin 128, phi (Q i) * bdKV K V i j) * invDen

end Packed

/-- The packed view of one batch: packed row n2, lane i is row 2·n2 + i/64, column i mod 64. -/
def packRows (x : Fin 8192 → Fin 64 → Ideal .f32) : Fin 4096 → Fin 128 → Ideal .f32 :=
  fun n2 i => x ⟨2 * n2.val + i.val / 64, by omega⟩ ⟨i.val % 64, Nat.mod_lt _ (by decide)⟩

/-- The reference's output for one batch at row n, column e. -/
def refRow (qb kb vb : Fin 8192 → Fin 64 → Ideal .f32) (n : Fin 8192) (e : Fin 64) : Ideal .f32 :=
  Ideal.div (∑ d : Fin 64, phi (qb n d) * ∑ n' : Fin 8192, phi (kb n' d) * vb n' e) den

/-- The kernel's output for one batch at row n, column e: packed row n/2, lane 64·(n mod 2) + e. -/
def kerRow (qb kb vb : Fin 8192 → Fin 64 → Ideal .f32) (n : Fin 8192) (e : Fin 64) : Ideal .f32 :=
  rowOut (packRows kb) (packRows vb) (packRows qb ⟨n.val / 2, by omega⟩) ⟨64 * (n.val % 2) + e.val, by omega⟩

end Cert.LinAttn

end
-- ==== Proof.LibColDot.lean ====
/-
  A matrix product that contracts the FIRST axis of both operands, read at an index.

  The product of a `[K, R]` array with a `[K, C]` array into `[R, C]` that contracts the leading axis of both —
  the transposed left operand times the right operand, `lhsᵀ · rhs` — has the dimension numbers of the record
  `colDot` below, whose side condition is a parameter: any record with the same lists is one of them by unfolding.
  On the extended reals the product into a zero accumulator, read at `(p, q)`, is the sum over `k` of
  `lhs (k, p) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibColDot

open Idealize.ShloMosaic Idealize.ShloMosaic.ValueIdx

/-- The dimension numbers of a `[K, R] × [K, C] → [R, C]` product contracting the leading axis of both operands. -/
abbrev colDot (K R C : Nat)
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

section
variable {K R C : Nat} (wf : DotDims.WF ⟨2, ![K, R]⟩ ⟨2, ![K, C]⟩ ⟨2, ![R, C]⟩ [0] [0] [1] [1] [] [])

/-- The left operand's index for output `(p, q)` and contraction coordinate `k` is `(k, p)`. -/
theorem colDot_lhsIdx (p : Fin R) (q : Fin C) (k : Fin K) :
    (colDot K R C wf).lhsIdx (ix2 p q) ((contrEquiv1 (colDot K R C wf) K rfl rfl).symm k) = ix2 k p := by
  have hk := contrEquiv1_symm_val (colDot K R C wf) K rfl rfl k
  funext a
  refine Fin.ext ?_
  match a with
  | ⟨0, _⟩ =>
    exact ((colDot K R C wf).lhsIdx_val_of_single (cl := (0 : Fin 2)) rfl (ix2 p q) _).trans hk
  | ⟨1, _⟩ =>
    show ((colDot K R C wf).lhsIdx (ix2 p q) ((contrEquiv1 (colDot K R C wf) K rfl rfl).symm k) 1).val = p.val
    unfold DotDims.lhsIdx
    rw [dif_neg (show ¬(1 : Fin 2) ∈ (colDot K R C wf).lhsBatch from List.not_mem_nil),
      dif_pos (show (1 : Fin 2) ∈ (colDot K R C wf).lhsNonContracting from List.mem_singleton.mpr rfl)]
    rfl

/-- The right operand's index for output `(p, q)` and contraction coordinate `k` is `(k, q)`. -/
theorem colDot_rhsIdx (p : Fin R) (q : Fin C) (k : Fin K) :
    (colDot K R C wf).rhsIdx (ix2 p q) ((contrEquiv1 (colDot K R C wf) K rfl rfl).symm k) = ix2 k q := by
  have hk := contrEquiv1_symm_val (colDot K R C wf) K rfl rfl k
  funext a
  refine Fin.ext ?_
  match a with
  | ⟨0, _⟩ =>
    exact ((colDot K R C wf).rhsIdx_val_of_single (cr := (0 : Fin 2)) rfl (ix2 p q) _).trans hk
  | ⟨1, _⟩ =>
    show ((colDot K R C wf).rhsIdx (ix2 p q) ((contrEquiv1 (colDot K R C wf) K rfl rfl).symm k) 1).val = q.val
    unfold DotDims.rhsIdx
    rw [dif_neg (show ¬(1 : Fin 2) ∈ (colDot K R C wf).rhsBatch from List.not_mem_nil),
      dif_pos (show (1 : Fin 2) ∈ (colDot K R C wf).rhsNonContracting from List.mem_singleton.mpr rfl)]
    rfl

/-- THE PRODUCT `lhsᵀ · rhs` INTO A ZERO ACCUMULATOR AT `(p, q)`: the sum over `k` of `lhs (k, p) * rhs (k, q)`. -/
theorem matmul_zero_apply {φ₁ φ₂ : FTy} (prec : Option ContractPrecision)
    (lhs : FVec Ideal ⟨2, ![K, R]⟩ φ₁) (rhs : FVec Ideal ⟨2, ![K, C]⟩ φ₂) (p : Fin R) (q : Fin C) :
    FloatOps.matmul (colDot K R C wf) prec lhs rhs (constant ⟨2, ![R, C]⟩ .f32 0x00000000#32) (ix2 p q)
      = ∑ k : Fin K, lhs (ix2 k p) * rhs (ix2 k q) := by
  rw [Ideal.matmul_constant_zero_apply, ← Equiv.sum_comp (contrEquiv1 (colDot K R C wf) K rfl rfl).symm]
  refine Finset.sum_congr rfl fun k _ => ?_
  rw [colDot_lhsIdx wf p q k, colDot_rhsIdx wf p q k]

end

end Cert.LibColDot

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KernelPieces.lean ====
/-
  What the kernel body leaves in its output block, read at an index.

  The body loads the packed k and v blocks in four chunks of 1024 rows, accumulates φ(k)ᵀ · v into a 128 × 128 matrix,
  adds the matrix rotated by half a side along both axes, keeps the entries whose row and column lie in the same
  half (a mask computed from two iotas by floor division by 64), and stores, chunk by chunk, φ(q) times that matrix,
  scaled by 2^-19. Read at a row and a lane of the block this is `rowOut` of the three packed blocks.
-/
import proofs.«158259_j19232863551966_2_alg».proof.Proof.Gen.KernelIdeal.Frame
import proofs.«158259_j19232863551966_2_alg».proof.Proof.Spec
import proofs.«158259_j19232863551966_2_alg».proof.Proof.LibColDot
import proofs.«158259_j19232863551966_2_alg».proof.Proof.LibPlainDot
import Idealize.ShloMosaic.Lib.Pipeline.Value
import Idealize.ShloMosaic.Lib.ValueIdx
import Idealize.ShloMosaic.Lib.KernelVsHost

noncomputable section

open scoped BigOperators

namespace Cert.LinAttn.KernelSide

open Cert.KernelIdeal Cert.KernelIdeal.Gen Idealize.ShloMosaic Idealize.ShloMosaic.TcCoe Idealize.ShloMosaic.ValueIdx Cert.LinAttn

/-! ## The feature map on a chunk, and a chunk read as a matrix -/

/-- φ entry by entry. -/
def phiVec (X : FVec Ideal S1024x128 .f32) : FVec Ideal S1024x128 .f32 := fun i => phi (X i)

/-- A [1, 1024, 128] chunk viewed as a matrix reads (0, r, i) at (r, i). -/
theorem chunk_as_matrix (L : Vec Ideal S1x1024x128 .f32) (r : Fin 1024) (i : Fin 128) :
    shapeCast S1024x128 L Facts₀.shapeCasts_S1x1024x128_S1024x128 (ix2 r i) = L (ix3 0 r i) :=
  shapeCast_apply L _ (ix2 r i) (ix3 0 r i) (by
    rw [Shape.rowMajor_val_three, Shape.rowMajor_val_two]
    show ((0 : Nat) * 1024 + r.val) * 128 + i.val = r.val * 128 + i.val
    omega)

/-- A matrix stored as a [1, 1024, 128] chunk reads (r, j) at (u, r, j). -/
theorem matrix_as_chunk (X : FVec Ideal S1024x128 .f32) (u : Fin 1) (r : Fin 1024) (j : Fin 128) :
    shapeCast S1x1024x128 X Facts₀.shapeCasts_S1024x128_S1x1024x128 (ix3 u r j) = X (ix2 r j) :=
  shapeCast_apply X _ (ix3 u r j) (ix2 r j) (by
    rw [Shape.rowMajor_val_three, Shape.rowMajor_val_two]
    show r.val * 128 + j.val = (u.val * 1024 + r.val) * 128 + j.val
    have := u.isLt
    omega)

/-! ## One output chunk -/

/-- One stored chunk: φ of the loaded q chunk times the matrix `M`, scaled. -/
def chunkVec (M : FVec Ideal S128x128 .f32) (L : Vec Ideal S1x1024x128 .f32) : FVec Ideal S1x1024x128 .f32 :=
  shapeCast S1x1024x128 (mulf (matmul dot_S1024x128_S128x128_S1024x128_1_0_0_1_n_n none (phiVec (shapeCast S1024x128 L Facts₀.shapeCasts_S1x1024x128_S1024x128)) M (constant S1024x128 .f32 0x00000000#32)) (broadcast S1024x128 (Scalar.ofBits .f32 0x36000000#32))) Facts₀.shapeCasts_S1024x128_S1x1024x128

theorem store0_eq (M : FVec Ideal S128x128 .f32) (L : Vec Ideal S1x1024x128 .f32) : k0_pay12 M (k0_pay10 L) (k0_pay11 L) = chunkVec M L := rfl
theorem store1_eq (M : FVec Ideal S128x128 .f32) (L : Vec Ideal S1x1024x128 .f32) : k0_pay13 M L = chunkVec M L := rfl
theorem store2_eq (M : FVec Ideal S128x128 .f32) (L : Vec Ideal S1x1024x128 .f32) : k0_pay1 M (k0_pay14 L) (k0_pay15 L) (k0_pay16 L) (Scalar.ofBits .f32 0x00000000#32) = chunkVec M L := rfl
theorem store3_eq (M : FVec Ideal S128x128 .f32) (L : Vec Ideal S1x1024x128 .f32) : k0_pay2 M L = chunkVec M L := rfl

/-- A stored chunk at (u, r, j): the sum over lanes i of φ(q chunk at (0, r, i)) · M(i, j), times 2^-19. -/
theorem chunkVec_apply (M : FVec Ideal S128x128 .f32) (L : Vec Ideal S1x1024x128 .f32) (u : Fin 1) (r : Fin 1024) (j : Fin 128) :
    chunkVec M L (ix3 u r j) = (∑ i : Fin 128, phi (L (ix3 0 r i)) * M (ix2 i j)) * invDen := by
  unfold chunkVec
  rw [matrix_as_chunk]
  show FloatOps.matmul dot_S1024x128_S128x128_S1024x128_1_0_0_1_n_n none (phiVec (shapeCast S1024x128 L Facts₀.shapeCasts_S1x1024x128_S1024x128)) M (constant S1024x128 .f32 0x00000000#32) (ix2 r j) * invDen = _
  refine congrArg (· * invDen) ?_
  refine (LibPlainDot.matmul_zero_apply (R := 1024) (K := 128) (C := 128) Facts₀.dot_S1024x128_S128x128_S1024x128_1_0_0_1_n_n_wf none _ M r j).trans ?_
  refine Finset.sum_congr rfl fun i _ => ?_
  show phi (shapeCast S1024x128 L Facts₀.shapeCasts_S1x1024x128_S1024x128 (ix2 r i)) * M (ix2 i j) = _
  rw [chunk_as_matrix]

/-! ## The accumulated matrix -/

/-- One chunk's product φ(k chunk)ᵀ · (v chunk) into a zero accumulator. -/
def mmVec (Lk Lv : Vec Ideal S1x1024x128 .f32) : FVec Ideal S128x128 .f32 :=
  matmul dot_S1024x128_S1024x128_S128x128_0_0_1_1_n_n none (phiVec (shapeCast S1024x128 Lk Facts₀.shapeCasts_S1x1024x128_S1024x128)) (shapeCast S1024x128 Lv Facts₀.shapeCasts_S1x1024x128_S1024x128 : FVec Ideal S1024x128 .f32) (constant S128x128 .f32 0x00000000#32)

theorem mmVec_apply (Lk Lv : Vec Ideal S1x1024x128 .f32) (i j : Fin 128) :
    mmVec Lk Lv (ix2 i j) = ∑ r : Fin 1024, phi (Lk (ix3 0 r i)) * Lv (ix3 0 r j) := by
  unfold mmVec
  refine (LibColDot.matmul_zero_apply (K := 1024) (R := 128) (C := 128) Facts₀.dot_S1024x128_S1024x128_S128x128_0_0_1_1_n_n_wf none _ _ i j).trans ?_
  refine Finset.sum_congr rfl fun r _ => ?_
  show phi (shapeCast S1024x128 Lk Facts₀.shapeCasts_S1x1024x128_S1024x128 (ix2 r i)) * shapeCast S1024x128 Lv Facts₀.shapeCasts_S1x1024x128_S1024x128 (ix2 r j) = _
  rw [chunk_as_matrix, chunk_as_matrix]

/-- The four chunks' products added up from a zero matrix, in the body's order. -/
def accVec (a1 a2 b1 b2 c1 c2 d1 d2 : Vec Ideal S1x1024x128 .f32) : FVec Ideal S128x128 .f32 :=
  addf (addf (addf (addf (broadcast S128x128 (Scalar.ofBits .f32 0x00000000#32)) (mmVec a1 a2)) (mmVec b1 b2)) (mmVec c1 c2)) (mmVec d1 d2)

theorem acc_eq (a1 a2 b1 b2 c1 c2 d1 d2 : Vec Ideal S1x1024x128 .f32) :
    k0_pay5 (k0_pay3 a1 a2 b1 b2) (k0_pay4 c1) c2 d1 d2 = accVec a1 a2 b1 b2 c1 c2 d1 d2 := rfl

theorem accVec_apply (a1 a2 b1 b2 c1 c2 d1 d2 : Vec Ideal S1x1024x128 .f32) (i j : Fin 128) :
    accVec a1 a2 b1 b2 c1 c2 d1 d2 (ix2 i j)
      = (((zeroF + mmVec a1 a2 (ix2 i j)) + mmVec b1 b2 (ix2 i j)) + mmVec c1 c2 (ix2 i j)) + mmVec d1 d2 (ix2 i j) := rfl

end Cert.LinAttn.KernelSide

end
-- ==== Proof.KernelMatrix.lean ====
/-
  The block-diagonal matrix the kernel multiplies φ(q) by, read at an entry.

  The accumulated 128 × 128 matrix is rotated by 64 along the rows and then along the columns, so the rotated matrix
  at (i, j) is the matrix at ((i + 64) mod 128, (j + 64) mod 128). The mask compares ⌊row / 64⌋ with ⌊column / 64⌋;
  the floor division is spelt with a truncating division and a correction for operands of opposite signs, which for
  the coordinates 0 … 127 is the plain quotient.
-/
import proofs.«158259_j19232863551966_2_alg».proof.Proof.KernelPieces

noncomputable section

open scoped BigOperators

namespace Cert.LinAttn.KernelSide

open Cert.KernelIdeal Cert.KernelIdeal.Gen Idealize.ShloMosaic Idealize.ShloMosaic.TcCoe Idealize.ShloMosaic.ValueIdx Cert.LinAttn

/-! ## The rotation by half a side along both axes -/

theorem rot_both_apply (A : FVec Ideal S128x128 .f32) (i j : Fin 128) :
    dynamicRotate 1 64#32 none (dynamicRotate 0 64#32 none A Facts₀.rotates_S128x128_d0) Facts₀.rotates_S128x128_d1 (ix2 i j)
      = A (ix2 (rot64 i) (rot64 j)) := by
  rw [dynamicRotate_apply 1 64#32 _ _ (ix2 i j) (ix2 i (rot64 j)) (by
        intro b
        match b with
        | ⟨0, _⟩ => rfl
        | ⟨1, _⟩ => show (j.val + 64) % 128 = (j.val + 128 - 64 % 128) % 128; omega),
      dynamicRotate_apply 0 64#32 _ _ (ix2 i (rot64 j)) (ix2 (rot64 i) (rot64 j)) (by
        intro b
        match b with
        | ⟨0, _⟩ => show (i.val + 64) % 128 = (i.val + 128 - 64 % 128) % 128; omega
        | ⟨1, _⟩ => rfl)]

/-! ## The floor division by 64 of a coordinate -/

/-- The body's floor division by 64 of a 32-bit word: the truncating quotient, less one when the signs of the
    operands differ and the remainder is not zero. -/
def halfIdx (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- On the coordinates 0 … 127 it is the quotient by 64. -/
theorem halfIdx_coord : ∀ i : Fin 128, halfIdx (BitVec.ofNat 32 i.val) = BitVec.ofNat 32 (i.val / 64) := by
  decide +kernel

/-- Two quotients, each 0 or 1, compare equal as words exactly when they are equal. -/
theorem half_eq_word : ∀ a b : Fin 2, IntOp.cmpi .eq (BitVec.ofNat 32 a.val) (BitVec.ofNat 32 b.val) = if a.val = b.val then 1#1 else 0#1 := by
  decide +kernel

/-! ## The masked sum -/

/-- The matrix plus the rotated matrix where row and column lie in the same half, zero elsewhere, at (i, j). -/
theorem masked_apply (A R : FVec Ideal S128x128 .f32) (i j : Fin 128) :
    k0_pay9 A R (iota .tc S128x128 32 [0] Facts₀.iota_S128x128_d0_w32) 64#32 k0_pay7 k0_pay8 (Scalar.extui (Scalar.cmpi .sgt 64#32 0#32)) 0#32 (ix2 i j)
      = if i.val / 64 = j.val / 64 then A (ix2 i j) + R (ix2 i j) else zeroF := by
  show Scalar.select (IntOp.cmpi .eq (halfIdx (iota .tc S128x128 32 [0] Facts₀.iota_S128x128_d0_w32 (ix2 i j))) (halfIdx (iota .tc S128x128 32 [1] Facts₀.iota_S128x128_d1_w32 (ix2 i j)))) (A (ix2 i j) + R (ix2 i j)) zeroF = _
  rw [iota_single_apply, iota_single_apply]
  show Scalar.select (IntOp.cmpi .eq (halfIdx (BitVec.ofNat 32 i.val)) (halfIdx (BitVec.ofNat 32 j.val))) _ _ = _
  rw [halfIdx_coord, halfIdx_coord, half_eq_word ⟨i.val / 64, by omega⟩ ⟨j.val / 64, by omega⟩]
  show Scalar.select (if i.val / 64 = j.val / 64 then 1#1 else 0#1) _ _ = _
  split_ifs with h
  · exact select_one _ _
  · exact select_zero _ _

/-! ## The loaded chunks as rows of the block -/

/-- A packed [1, 4096, 128] block as a function of row and lane. -/
def slab (x : Vec Ideal S1x4096x128 .f32) : Fin 4096 → Fin 128 → Ideal .f32 := fun n2 i => x (ix3 0 n2 i)

/-- The chunk of 1024 rows loaded from row `off` reads row `off + r` of the block at (0, r, i). -/
theorem ld_chunk (x : Vec Ideal S1x4096x128 .f32) (off : Nat) (inb : ∀ a, (![0, off, 0] : Fin 3 → Nat) a + S1x1024x128.size a ≤ S1x4096x128.size a)
    (h : off + 1024 ≤ 4096) (r : Fin 1024) (i : Fin 128) :
    View.ld x (Rect.unit (s := S1x4096x128) ![0, off, 0] S1x1024x128.size inb) (ix3 0 r i) = slab x ⟨off + r.val, by omega⟩ i := by
  show x ((Rect.unit (s := S1x4096x128) ![0, off, 0] S1x1024x128.size inb).idx (ix3 0 r i)) = x (ix3 0 ⟨off + r.val, by omega⟩ i)
  refine congrArg x (funext fun a => Fin.ext ?_)
  match a with
  | ⟨0, _⟩ => rfl
  | ⟨1, _⟩ => show off + 1 * r.val = off + r.val; omega
  | ⟨2, _⟩ => show 0 + 1 * i.val = i.val; omega

/-- One chunk's product is the specification's chunk. -/
theorem mm_chunk (x1 x2 : Vec Ideal S1x4096x128 .f32) (off : Nat) (inb : ∀ a, (![0, off, 0] : Fin 3 → Nat) a + S1x1024x128.size a ≤ S1x4096x128.size a)
    (h : off + 1024 ≤ 4096) (i j : Fin 128) :
    mmVec (View.ld x1 (Rect.unit (s := S1x4096x128) ![0, off, 0] S1x1024x128.size inb)) (View.ld x2 (Rect.unit (s := S1x4096x128) ![0, off, 0] S1x1024x128.size inb)) (ix2 i j)
      = chunkKV (slab x1) (slab x2) off h i j := by
  rw [mmVec_apply]
  unfold chunkKV
  refine Finset.sum_congr rfl fun r _ => ?_
  rw [ld_chunk x1 off inb h, ld_chunk x2 off inb h]

/-- The accumulated matrix of the block's four chunks. -/
def accOf (x1 x2 : Vec Ideal S1x4096x128 .f32) : FVec Ideal S128x128 .f32 :=
  k0_pay5 (k0_pay3 (View.ld x1 r0_0) (View.ld x2 r0_0) (View.ld x1 r0_1) (View.ld x2 r0_1)) (k0_pay4 (View.ld x1 r0_2)) (View.ld x2 r0_2) (View.ld x1 r0_3) (View.ld x2 r0_3)

theorem accOf_apply (x1 x2 : Vec Ideal S1x4096x128 .f32) (i j : Fin 128) :
    accOf x1 x2 (ix2 i j) = accKV (slab x1) (slab x2) i j := by
  unfold accOf
  rw [acc_eq, accVec_apply]
  unfold accKV
  rw [mm_chunk x1 x2 0 _ (by decide), mm_chunk x1 x2 1024 _ (by decide), mm_chunk x1 x2 2048 _ (by decide), mm_chunk x1 x2 3072 _ (by decide)]

/-- The block-diagonal matrix of the block. -/
def kvMatrix (x1 x2 : Vec Ideal S1x4096x128 .f32) : FVec Ideal S128x128 .f32 :=
  k0_pay9 (accOf x1 x2) (dynamicRotate 1 64#32 none (dynamicRotate 0 64#32 none (accOf x1 x2) Facts₀.rotates_S128x128_d0) Facts₀.rotates_S128x128_d1)
    (iota .tc S128x128 32 [0] Facts₀.iota_S128x128_d0_w32) 64#32 k0_pay7 k0_pay8 (Scalar.extui (Scalar.cmpi .sgt 64#32 0#32)) 0#32

theorem kvMatrix_apply (x1 x2 : Vec Ideal S1x4096x128 .f32) (i j : Fin 128) :
    kvMatrix x1 x2 (ix2 i j) = bdKV (slab x1) (slab x2) i j := by
  unfold kvMatrix
  rw [masked_apply, rot_both_apply, accOf_apply, accOf_apply]
  rfl

end Cert.LinAttn.KernelSide

end
-- ==== Proof.KernelBlock.lean ====
/-
  The whole block the kernel body leaves in its output window, as one function of the three input blocks.

  The body stores four chunks of 1024 rows; chunk c at (r, j) is the packed output row 1024·c + r at lane j. So
  the stores are the four restrictions of one function of the block index, and the block they leave is that function.
-/
import proofs.«158259_j19232863551966_2_alg».proof.Proof.KernelMatrix

set_option maxRecDepth 16384

noncomputable section

open scoped BigOperators

namespace Cert.LinAttn.KernelSide

open Cert.KernelIdeal Cert.KernelIdeal.Gen Idealize.ShloMosaic Idealize.ShloMosaic.TcCoe Idealize.ShloMosaic.ValueIdx Cert.LinAttn

/-- The output block: at (·, n2, j) the packed output row n2 at lane j. -/
def blockOut (x0 x1 x2 : Vec Ideal S1x4096x128 .f32) : S1x4096x128.Idx → Ideal .f32 :=
  fun y => rowOut (slab x1) (slab x2) (slab x0 (y 1)) (y 2)

/-- The body's stores, each a chunk of φ(q) times the block-diagonal matrix. -/
theorem out_eq_pieces (x0 x1 x2 : Vec Ideal S1x4096x128 .f32) :
    out0_3 x0 x1 x2 = View.canon [⟨r0_3, chunkVec (kvMatrix x1 x2) (View.ld x0 r0_3)⟩, ⟨r0_2, chunkVec (kvMatrix x1 x2) (View.ld x0 r0_2)⟩,
      ⟨r0_1, chunkVec (kvMatrix x1 x2) (View.ld x0 r0_1)⟩, ⟨r0_0, chunkVec (kvMatrix x1 x2) (View.ld x0 r0_0)⟩] := rfl

/-- The chunk stored from row `off` is the restriction of the block function to its rectangle. -/
theorem piece_apply (x0 x1 x2 : Vec Ideal S1x4096x128 .f32) (off : Nat)
    (inb : ∀ a, (![0, off, 0] : Fin 3 → Nat) a + S1x1024x128.size a ≤ S1x4096x128.size a) (h : off + 1024 ≤ 4096) (z : S1x1024x128.Idx) :
    chunkVec (kvMatrix x1 x2) (View.ld x0 (Rect.unit (s := S1x4096x128) ![0, off, 0] S1x1024x128.size inb)) z
      = blockOut x0 x1 x2 ((Rect.unit (s := S1x4096x128) ![0, off, 0] S1x1024x128.size inb).emb z) := by
  obtain ⟨u, r, j, rfl⟩ : ∃ (u : Fin 1) (r : Fin 1024) (j : Fin 128), z = ix3 u r j := ⟨z 0, z 1, z 2, eq_ix3 z⟩
  rw [chunkVec_apply]
  unfold blockOut rowOut
  have e1 : ((Rect.unit (s := S1x4096x128) ![0, off, 0] S1x1024x128.size inb).emb (ix3 u r j)) 1 = (⟨off + r.val, by omega⟩ : Fin 4096) :=
    Fin.ext (show off + 1 * r.val = off + r.val by omega)
  have e2 : ((Rect.unit (s := S1x4096x128) ![0, off, 0] S1x1024x128.size inb).emb (ix3 u r j)) 2 = j :=
    Fin.ext (show 0 + 1 * j.val = j.val by omega)
  rw [e1, e2]
  refine congrArg (· * invDen) (Finset.sum_congr rfl fun i _ => ?_)
  rw [ld_chunk x0 off inb h, kvMatrix_apply]

/-- THE BLOCK the body leaves is the block function of the three input blocks. -/
theorem out_eq_block (x0 x1 x2 : Vec Ideal S1x4096x128 .f32) : out0_3 x0 x1 x2 = blockOut x0 x1 x2 := by
  funext y
  rw [out_eq_pieces]
  refine View.canon_apply_of_pieces (Val := Elt Ideal) (e := .f32) (blockOut x0 x1 x2) _ ?_ y (cover0_3 _ _ _ _ y)
  intro p hp
  simp only [List.mem_cons, List.mem_nil_iff, or_false] at hp
  rcases hp with rfl | rfl | rfl | rfl
  · exact piece_apply x0 x1 x2 3072 _ (by decide)
  · exact piece_apply x0 x1 x2 2048 _ (by decide)
  · exact piece_apply x0 x1 x2 1024 _ (by decide)
  · exact piece_apply x0 x1 x2 0 _ (by decide)

end Cert.LinAttn.KernelSide

end
-- ==== Proof.KernelArray.lean ====
/-
  The packed output array after the region, as one function of the packed input arrays.

  Grid point t stages block t (one batch: [1, 4096, 128] at (t, 0, 0)) of each packed array and writes block t of
  the output; the blocks tile the output array, so after the last point the array holds, at (b, n2, j), the packed
  output row n2 of batch b at lane j.
-/
import proofs.«158259_j19232863551966_2_alg».proof.Proof.KernelBlock
import Idealize.ShloMosaic.Lib.Pipeline.Value

set_option maxRecDepth 16384

noncomputable section

open scoped BigOperators

namespace Cert.LinAttn.KernelSide

open Cert.KernelIdeal Cert.KernelIdeal.Gen Idealize.ShloMosaic Idealize.ShloMosaic.TcCoe Idealize.ShloMosaic.ValueIdx Cert.LinAttn
open Idealize.SL.Sem
open Idealize.ShloMosaic.Pipeline (Dat)

variable (m : (ℓ : Loc nD τ sig) → Buf (Elt Ideal) ℓ) (ρ : Dev nD → PrngReg)

/-- The packed output array of the three packed input arrays: batch by batch, `rowOut` of the batch's slabs. -/
def packedOut (A0 A1 A2 : S16x4096x128.Idx → Ideal .f32) : S16x4096x128.Idx → Ideal .f32 :=
  fun y => rowOut (fun n2 i => A1 (ix3 (y 0) n2 i)) (fun n2 i => A2 (ix3 (y 0) n2 i)) (fun i => A0 (ix3 (y 0) (y 1) i)) (y 2)

/-- The index maps over the grid: every window's block at point t is batch t, whole on the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := by
  have h := t.isLt
  have hN : cfg0.N = 16 := N_0
  omega

/-- Input window 0's block at point t, at (0, n2, i), is the array at (t, n2, i). -/
theorem iblk0_apply (c : Dev nD) (t : Fin cfg0.N) (n2 : Fin 4096) (i : Fin 128) :
    slab (iblk m c 0 t) n2 i = V m c main_v0 (ix3 ⟨t.val, point_lt t⟩ n2 i) := by
  obtain ⟨e00, e01, e02, -⟩ := idx_facts t
  show V m c main_v0 (((cfg0.win 0).blk t).view.emb (ix3 0 n2 i)) = V m c main_v0 (ix3 ⟨t.val, point_lt t⟩ n2 i)
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * n2.val = n2.val; omega
  | ⟨2, _⟩ => show win0_0.index t (2 : Fin 3) * 128 + 1 * i.val = i.val; omega

theorem iblk1_apply (c : Dev nD) (t : Fin cfg0.N) (n2 : Fin 4096) (i : Fin 128) :
    slab (iblk m c 1 t) n2 i = V m c main_v1 (ix3 ⟨t.val, point_lt t⟩ n2 i) := by
  obtain ⟨-, -, -, e10, e11, e12, -⟩ := idx_facts t
  show V m c main_v1 (((cfg0.win 1).blk t).view.emb (ix3 0 n2 i)) = V m c main_v1 (ix3 ⟨t.val, point_lt t⟩ n2 i)
  refine congrArg _ (funext fun a => Fin.ext ?_)
  match a with
  | ⟨0, _⟩ => show win0_1.index t (0 : Fin 3) * 1 + 1 * 0 = t.val; omega
  | ⟨1, _⟩ => show win0_1.index t (1 : Fin 3) * 4096 + 1 * n2.val = n2.val; omega
  | ⟨2, _⟩ => show win0_1.index t (2 : Fin 3) * 128 + 1 * i.val = i.val; omega

theorem iblk2_apply (c : Dev nD) (t : Fin cfg0.N) (n2 : Fin 4096) (i : Fin 128) :
    slab (iblk m c 2 t) n2 i = V m c main_v2 (ix3 ⟨t.val, point_lt t⟩ n2 i) := by
  obtain ⟨-, -, -, -, -, -, e20, e21, e22, -⟩ := idx_facts t
  show V m c main_v2 (((cfg0.win 2).blk t).view.emb (ix3 0 n2 i)) = V m c main_v2 (ix3 ⟨t.val, point_lt t⟩ n2 i)
  refine congrArg _ (funext fun a => Fin.ext ?_)
  match a with
  | ⟨0, _⟩ => show win0_2.index t (0 : Fin 3) * 1 + 1 * 0 = t.val; omega
  | ⟨1, _⟩ => show win0_2.index t (1 : Fin 3) * 4096 + 1 * n2.val = n2.val; omega
  | ⟨2, _⟩ => show win0_2.index t (2 : Fin 3) * 128 + 1 * i.val = i.val; omega

/-- WHAT POINT t WRITES BACK is block t of the packed output array. -/
theorem flushed_eq (c : Dev nD) (t : Fin cfg0.N) :
    (dats m 0 c).flushed 3 t
      = ((cfg0.win 3).blk t).view.read (Elt Ideal) (packedOut (V m c main_v0) (V m c main_v1) (V m c main_v2)) := by
  show (cfg0.win 3).cut (grid0.coords t) ((dats m 0 c).after 3 t) = _
  rw [after0_3, out_eq_block]
  obtain ⟨-, -, -, -, -, -, -, -, -, e30, e31, e32⟩ := idx_facts t
  funext z
  obtain ⟨u, n2, j, rfl⟩ : ∃ (u : Fin 1) (n2 : Fin 4096) (j : Fin 128), z = ix3 u n2 j := ⟨z 0, z 1, z 2, eq_ix3 z⟩
  show blockOut (iblk m c 0 t) (iblk m c 1 t) (iblk m c 2 t) (ix3 u n2 j)
    = packedOut (V m c main_v0) (V m c main_v1) (V m c main_v2) (((cfg0.win 3).blk t).view.emb (ix3 u n2 j))
  have hu : u.val = 0 := by have := u.isLt; omega
  have y0 : (((cfg0.win 3).blk t).view.emb (ix3 u n2 j)) 0 = (⟨t.val, point_lt t⟩ : Fin 16) :=
    Fin.ext (show win0_3.index t (0 : Fin 3) * 1 + 1 * u.val = t.val by omega)
  have y1 : (((cfg0.win 3).blk t).view.emb (ix3 u n2 j)) 1 = n2 :=
    Fin.ext (show win0_3.index t (1 : Fin 3) * 4096 + 1 * n2.val = n2.val by omega)
  have y2 : (((cfg0.win 3).blk t).view.emb (ix3 u n2 j)) 2 = j :=
    Fin.ext (show win0_3.index t (2 : Fin 3) * 128 + 1 * j.val = j.val by omega)
  unfold packedOut blockOut
  rw [y0, y1, y2]
  have h1 : slab (iblk m c 1 t) = fun n2 i => V m c main_v1 (ix3 ⟨t.val, point_lt t⟩ n2 i) :=
    funext fun n2 => funext fun i => iblk1_apply m c t n2 i
  have h2 : slab (iblk m c 2 t) = fun n2 i => V m c main_v2 (ix3 ⟨t.val, point_lt t⟩ n2 i) :=
    funext fun n2 => funext fun i => iblk2_apply m c t n2 i
  have h0 : slab (iblk m c 0 t) n2 = fun i => V m c main_v0 (ix3 ⟨t.val, point_lt t⟩ n2 i) :=
    funext fun i => iblk0_apply m c t n2 i
  show rowOut (slab (iblk m c 1 t)) (slab (iblk m c 2 t)) (slab (iblk m c 0 t) n2) j = _
  rw [h1, h2, h0]

/-- An index of the array is in point t's block iff each coordinate is in the block's range on its axis. -/
theorem mem_blk3 (t : Fin cfg0.N) (i : S16x4096x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v3).slice (win0_3.rect t)).set ↔ _
  rw [View.set_slice_whole, Rect.mem_set_unit]
  exact Iff.rfl

/-- THE PACKED OUTPUT ARRAY after the region. -/
theorem final3 (c : Dev nD) :
    (dats m 0 c).arrAt 3 cfg0.N = packedOut (V m c main_v0) (V m c main_v1) (V m c main_v2) :=
  (dats m 0 c).arrAt_eq_of_cover 3 _ (fun t _ => flushed_eq m c t) fun (i : S16x4096x128.Idx) => by
    have h0 : (i 0).val < 16 := (i 0).isLt
    have h1 : (i 1).val < 4096 := (i 1).isLt
    have h2 : (i 2).val < 128 := (i 2).isLt
    have hN : cfg0.N = 16 := N_0
    have hlt : (i 0).val < cfg0.N := by rw [hN]; exact h0
    refine ⟨⟨(i 0).val, hlt⟩, flush0_3 _, ?_⟩
    rw [mem_blk3]
    obtain ⟨-, -, -, -, -, -, -, -, -, e30', e31, e32⟩ := idx_facts ⟨(i 0).val, hlt⟩
    have e30 : win0_3.index ⟨(i 0).val, hlt⟩ (0 : Fin 3) = (i 0).val := e30'
    intro a
    match a with
    | ⟨0, _⟩ => show win0_3.index ⟨(i 0).val, _⟩ (0 : Fin 3) * 1 ≤ (i 0).val ∧ (i 0).val < win0_3.index ⟨(i 0).val, _⟩ (0 : Fin 3) * 1 + 1; omega
    | ⟨1, _⟩ => show win0_3.index ⟨(i 0).val, _⟩ (1 : Fin 3) * 4096 ≤ (i 1).val ∧ (i 1).val < win0_3.index ⟨(i 0).val, _⟩ (1 : Fin 3) * 4096 + 4096; omega
    | ⟨2, _⟩ => show win0_3.index ⟨(i 0).val, _⟩ (2 : Fin 3) * 128 ≤ (i 2).val ∧ (i 2).val < win0_3.index ⟨(i 0).val, _⟩ (2 : Fin 3) * 128 + 128; omega

end Cert.LinAttn.KernelSide

end
-- ==== Proof.Algebra.lean ====
/-
  The packed computation and the reference agree, one batch at a time.
-/
import proofs.«158259_j19232863551966_2_alg».proof.Proof.Spec
import Mathlib

noncomputable section

open scoped BigOperators

namespace Cert.LinAttn

open Idealize.ShloMosaic Idealize.ShloMosaic.ValueIdx

/-- The zero word denotes 0. -/
theorem zeroF_eq : zeroF = 0 := Ideal.ofBits_zero_f32

/-- The kernel's scale denotes 2^-19. -/
theorem invDen_eq : invDen = ((1 / 524288 : ℝ) : EReal) := by
  show Ideal.ofBits .f32 0x36000000#32 = _
  simp [Ideal.ofBits, Ideal.ieee, -EReal.coe_mul]; norm_num

/-- The reference's divisor denotes 2^19. -/
theorem den_eq : den = ((524288 : ℝ) : EReal) := by
  show Ideal.ofBits .f32 0x49000000#32 = _
  simp [Ideal.ofBits, Ideal.ieee, -EReal.coe_mul]; norm_num

/-- A sum over N = m * n indices as a double sum, the index being b + n * a. -/
theorem sum_fin_mul {M : Type*} [AddCommMonoid M] (m n N : ℕ) (hN : m * n = N) (f : Fin N → M) :
    ∑ x : Fin N, f x
      = ∑ a : Fin m, ∑ b : Fin n, f ⟨b.val + n * a.val, by subst hN; exact (finProdFinEquiv (a, b)).isLt⟩ := by
  subst hN
  rw [← Equiv.sum_comp finProdFinEquiv f, Fintype.sum_prod_type]
  rfl

/-- The four chunks together are the sum over all packed rows. -/
theorem accKV_eq (K V : Fin 4096 → Fin 128 → Ideal .f32) (i j : Fin 128) :
    accKV K V i j = ∑ n2 : Fin 4096, phi (K n2 i) * V n2 j := by
  have key : ∀ a b : Fin 4096, a = b → phi (K a i) * V a j = phi (K b i) * V b j := by
    rintro a b rfl; rfl
  rw [sum_fin_mul 4 1024 4096 (by norm_num) (fun n2 : Fin 4096 => phi (K n2 i) * V n2 j), Fin.sum_univ_four]
  unfold accKV chunkKV
  rw [zeroF_eq, zero_add]
  refine congrArg₂ (· + ·) (congrArg₂ (· + ·) (congrArg₂ (· + ·) ?_ ?_) ?_) ?_
  all_goals
    refine Finset.sum_congr rfl (fun r _ => ?_)
    exact key _ _ (Fin.ext (by simp <;> omega))

/-- The accumulated entry of the first diagonal block plus that of the second is the sum over all rows. -/
theorem accKV_pair (kb vb : Fin 8192 → Fin 64 → Ideal .f32) (d e : Fin 64) :
    accKV (packRows kb) (packRows vb) ⟨d.val, by omega⟩ ⟨e.val, by omega⟩
      + accKV (packRows kb) (packRows vb) ⟨d.val + 64, by omega⟩ ⟨e.val + 64, by omega⟩
      = ∑ n' : Fin 8192, phi (kb n' d) * vb n' e := by
  have key : ∀ (a a' b : Fin 8192) (d1 d2 e1 e2 : Fin 64), a = b → a' = b → d1 = d2 → e1 = e2 →
      phi (kb a d1) * vb a' e1 = phi (kb b d2) * vb b e2 := by
    rintro a a' b d1 d2 e1 e2 rfl rfl rfl rfl; rfl
  rw [sum_fin_mul 4096 2 8192 (by norm_num) (fun n' : Fin 8192 => phi (kb n' d) * vb n' e)]
  rw [accKV_eq, accKV_eq, ← Finset.sum_add_distrib]
  refine Finset.sum_congr rfl (fun n2 _ => ?_)
  rw [Fin.sum_univ_two]
  unfold packRows
  refine congrArg₂ (· + ·) ?_ ?_
  all_goals
    exact key _ _ _ _ _ _ _ (Fin.ext (by simp <;> omega)) (Fin.ext (by simp <;> omega))
      (Fin.ext (by simp <;> omega)) (Fin.ext (by simp <;> omega))

/-- A read of the packed view is the read of the row and column it packs. -/
theorem packRows_apply (x : Fin 8192 → Fin 64 → Ideal .f32) (n2 : Fin 4096) (i : Fin 128) (n : Fin 8192) (d : Fin 64)
    (hn : 2 * n2.val + i.val / 64 = n.val) (hd : i.val % 64 = d.val) : packRows x n2 i = x n d := by
  obtain ⟨nv, hnv⟩ := n
  obtain ⟨dv, hdv⟩ := d
  simp only [Fin.val_mk] at hn hd
  subst hn hd
  rfl

/-- Off the two diagonal blocks the kept matrix is zero. -/
theorem bdKV_off (K V : Fin 4096 → Fin 128 → Ideal .f32) (i j : Fin 128) (h : i.val / 64 ≠ j.val / 64) :
    bdKV K V i j = 0 := by
  unfold bdKV
  rw [if_neg h, zeroF_eq]

/-- On the two diagonal blocks the kept matrix is the sum over all rows. -/
theorem bdKV_diag (kb vb : Fin 8192 → Fin 64 → Ideal .f32) (i j : Fin 128) (d e : Fin 64)
    (hi : i.val % 64 = d.val) (hj : j.val % 64 = e.val) (h : i.val / 64 = j.val / 64) :
    bdKV (packRows kb) (packRows vb) i j = ∑ n' : Fin 8192, phi (kb n' d) * vb n' e := by
  obtain ⟨iv, hiv⟩ := i
  obtain ⟨jv, hjv⟩ := j
  have h' := h
  simp only [Fin.val_mk] at hi hj h'
  unfold bdKV
  rw [if_pos h, ← accKV_pair kb vb d e]
  rcases Nat.lt_or_ge iv 64 with hlt | hge
  · have h1 : iv = d.val := by omega
    have h2 : jv = e.val := by omega
    subst h1 h2
    have e3 : rot64 ⟨d.val, hiv⟩ = ⟨d.val + 64, by omega⟩ := Fin.ext (by simp [rot64] <;> omega)
    have e4 : rot64 ⟨e.val, hjv⟩ = ⟨e.val + 64, by omega⟩ := Fin.ext (by simp [rot64] <;> omega)
    rw [e3, e4]
  · have h1 : iv = d.val + 64 := by omega
    have h2 : jv = e.val + 64 := by omega
    subst h1 h2
    have e3 : rot64 ⟨d.val + 64, hiv⟩ = ⟨d.val, by omega⟩ := Fin.ext (by simp [rot64] <;> omega)
    have e4 : rot64 ⟨e.val + 64, hjv⟩ = ⟨e.val, by omega⟩ := Fin.ext (by simp [rot64] <;> omega)
    rw [e3, e4, add_comm]

/-- A sum whose second term is zero is its first term. -/
theorem add_eq_of_right_zero {M : Type*} [AddCommMonoid M] {a b c : M} (ha : a = c) (hb : b = 0) : a + b = c := by
  rw [ha, hb, add_zero]

/-- A sum whose first term is zero is its second term. -/
theorem add_eq_of_left_zero {M : Type*} [AddCommMonoid M] {a b c : M} (ha : a = 0) (hb : b = c) : a + b = c := by
  rw [ha, hb, zero_add]

/-- For one batch, at row n and column e, the packed computation is the reference's quotient. -/
theorem kerRow_eq_refRow (qb kb vb : Fin 8192 → Fin 64 → Ideal .f32) (n : Fin 8192) (e : Fin 64) :
    kerRow qb kb vb n e = refRow qb kb vb n e := by
  have hn2 := Nat.mod_two_eq_zero_or_one n.val
  have hnlt := n.isLt
  unfold kerRow refRow rowOut
  rw [den_eq, Ideal.div_coe (by norm_num), invDen_eq]
  congr 1
  refine (sum_fin_mul 2 64 128 (by norm_num) _).trans ?_
  rw [Fin.sum_univ_two]
  rcases hn2 with hn | hn
  · refine add_eq_of_right_zero (Finset.sum_congr rfl fun d _ => ?_) (Finset.sum_eq_zero fun d _ => ?_)
    · rw [bdKV_diag kb vb _ _ d e (by simp <;> omega) (by simp <;> omega) (by simp <;> omega),
        packRows_apply qb _ _ n d (by simp <;> omega) (by simp <;> omega)]
    · rw [bdKV_off _ _ _ _ (by simp <;> omega), mul_zero]
  · refine add_eq_of_left_zero (Finset.sum_eq_zero fun d _ => ?_) (Finset.sum_congr rfl fun d _ => ?_)
    · rw [bdKV_off _ _ _ _ (by simp <;> omega), mul_zero]
    · rw [bdKV_diag kb vb _ _ d e (by simp <;> omega) (by simp <;> omega) (by simp <;> omega),
        packRows_apply qb _ _ n d (by simp <;> omega) (by simp <;> omega)]

end Cert.LinAttn

end
-- ==== Proof.KernelRun.lean ====
/-
  The kernel program's result as one function of its three arguments.

  Before the region the host reshapes each [16, 8192, 64] argument to the packed [16, 4096, 128] layout (row-major:
  packed (b, n2, i) is (b, 2·n2 + i / 64, i mod 64)); after it, it reshapes the packed output back (row-major:
  (b, n, e) is packed (b, n / 2, 64·(n mod 2) + e)). With the packed output array of the region this gives, batch
  by batch, `kerRow`, which is the reference's row.
-/
import proofs.«158259_j19232863551966_2_alg».proof.Proof.KernelArray
import proofs.«158259_j19232863551966_2_alg».proof.Proof.Algebra
import Idealize.ShloMosaic.Lib.StableHlo.Run

set_option maxRecDepth 16384

noncomputable section

open scoped BigOperators

namespace Cert.LinAttn.KernelSide

open Cert.KernelIdeal Cert.KernelIdeal.Gen Idealize.ShloMosaic Idealize.ShloMosaic.TcCoe Idealize.ShloMosaic.ValueIdx Cert.LinAttn
open Idealize.SL.Sem Idealize.ShloMosaic.StableHlo
open Idealize.ShloMosaic.Pipeline (Dat)

variable (m : (ℓ : Loc nD τ sig) → Buf (Elt Ideal) ℓ) (ρ : Dev nD → PrngReg)

/-- The program's result: the arguments packed, the region's packed output, unpacked. -/
def kerOut (q k v : S16x8192x64.Idx → Ideal .f32) : S16x8192x64.Idx → Ideal .f32 :=
  shapeCast S16x8192x64
    (packedOut (shapeCast S16x4096x128 q Facts₀.shapeCasts_S16x8192x64_S16x4096x128)
      (shapeCast S16x4096x128 k Facts₀.shapeCasts_S16x8192x64_S16x4096x128)
      (shapeCast S16x4096x128 v Facts₀.shapeCasts_S16x8192x64_S16x4096x128))
    Facts₀.shapeCasts_S16x4096x128_S16x8192x64

/-- A packed array at (b, n2, i) is the argument at (b, 2·n2 + i / 64, i mod 64). -/
theorem packed_apply (x : S16x8192x64.Idx → Ideal .f32) (b : Fin 16) (n2 : Fin 4096) (i : Fin 128) :
    shapeCast S16x4096x128 x Facts₀.shapeCasts_S16x8192x64_S16x4096x128 (ix3 b n2 i)
      = packRows (fun n d => x (ix3 b n d)) n2 i :=
  shapeCast_apply x _ (ix3 b n2 i) (ix3 b ⟨2 * n2.val + i.val / 64, by omega⟩ ⟨i.val % 64, Nat.mod_lt _ (by decide)⟩) (by
    rw [Shape.rowMajor_val_three, Shape.rowMajor_val_three]
    show (b.val * 8192 + (2 * n2.val + i.val / 64)) * 64 + i.val % 64 = (b.val * 4096 + n2.val) * 128 + i.val
    omega)

/-- THE KERNEL PROGRAM's result is the reference's, batch by batch. -/
theorem kerOut_eq (q k v : S16x8192x64.Idx → Ideal .f32) :
    kerOut q k v = fun i => refRow (fun n d => q (ix3 (i 0) n d)) (fun n d => k (ix3 (i 0) n d)) (fun n d => v (ix3 (i 0) n d)) (i 1) (i 2) := by
  funext i
  obtain ⟨b, n, e, rfl⟩ : ∃ (b : Fin 16) (n : Fin 8192) (e : Fin 64), i = ix3 b n e := ⟨i 0, i 1, i 2, eq_ix3 i⟩
  unfold kerOut
  rw [shapeCast_apply _ _ (ix3 b n e) (ix3 b ⟨n.val / 2, by omega⟩ ⟨64 * (n.val % 2) + e.val, by omega⟩) (by
    rw [Shape.rowMajor_val_three, Shape.rowMajor_val_three]
    show (b.val * 4096 + n.val / 2) * 128 + (64 * (n.val % 2) + e.val) = (b.val * 8192 + n.val) * 64 + e.val
    omega)]
  unfold packedOut
  have hq : (fun i => shapeCast S16x4096x128 q Facts₀.shapeCasts_S16x8192x64_S16x4096x128 (ix3 b ⟨n.val / 2, by omega⟩ i))
      = packRows (fun n d => q (ix3 b n d)) ⟨n.val / 2, by omega⟩ := funext fun i => packed_apply q b _ i
  have hk : (fun n2 i => shapeCast S16x4096x128 k Facts₀.shapeCasts_S16x8192x64_S16x4096x128 (ix3 b n2 i))
      = packRows (fun n d => k (ix3 b n d)) := funext fun n2 => funext fun i => packed_apply k b n2 i
  have hv : (fun n2 i => shapeCast S16x4096x128 v Facts₀.shapeCasts_S16x8192x64_S16x4096x128 (ix3 b n2 i))
      = packRows (fun n d => v (ix3 b n d)) := funext fun n2 => funext fun i => packed_apply v b n2 i
  show rowOut (fun n2 i => shapeCast S16x4096x128 k Facts₀.shapeCasts_S16x8192x64_S16x4096x128 (ix3 b n2 i))
      (fun n2 i => shapeCast S16x4096x128 v Facts₀.shapeCasts_S16x8192x64_S16x4096x128 (ix3 b n2 i))
      (fun i => shapeCast S16x4096x128 q Facts₀.shapeCasts_S16x8192x64_S16x4096x128 (ix3 b ⟨n.val / 2, by omega⟩ i))
      ⟨64 * (n.val % 2) + e.val, by omega⟩ = _
  rw [hq, hk, hv]
  exact kerRow_eq_refRow (fun n d => q (ix3 b n d)) (fun n d => k (ix3 b n d)) (fun n d => v (ix3 b n d)) n e

/-! ## The host operations around the region -/

/-- The region finds each packed array as the host's reshape of the argument. -/
theorem V_v0 (c : Dev nD) : (V m c main_v0 : S16x4096x128.Idx → Ideal .f32)
    = shapeCast S16x4096x128 (m ((c.tc : Thread nD τ).loc main_arg0)) Facts₀.shapeCasts_S16x8192x64_S16x4096x128 := by
  show StableHlo.after hostOps0 (fun b => m (c, b)) (Proc.devRef .tc main_v0) = _
  after_results
  rfl

theorem V_v1 (c : Dev nD) : (V m c main_v1 : S16x4096x128.Idx → Ideal .f32)
    = shapeCast S16x4096x128 (m ((c.tc : Thread nD τ).loc main_arg1)) Facts₀.shapeCasts_S16x8192x64_S16x4096x128 := by
  show StableHlo.after hostOps0 (fun b => m (c, b)) (Proc.devRef .tc main_v1) = _
  after_results
  rfl

theorem V_v2 (c : Dev nD) : (V m c main_v2 : S16x4096x128.Idx → Ideal .f32)
    = shapeCast S16x4096x128 (m ((c.tc : Thread nD τ).loc main_arg2)) Facts₀.shapeCasts_S16x8192x64_S16x4096x128 := by
  show StableHlo.after hostOps0 (fun b => m (c, b)) (Proc.devRef .tc main_v2) = _
  after_results
  rfl

/-- The host's last line reshapes the packed output array the region left. -/
theorem tail_v4 (c : Dev nD) :
    Pipeline.afterTail₀ cfgs (dats m) 0 (V0 m) [hostOps1] c main_v4
      = kerOut (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) _ 3
  rw [e, final3, V_v0, V_v1, V_v2]
  rfl

/-! ## The run, read -/

/-- Every execution of the kernel program ends with its result at `kerOut` of the arguments, the arguments unchanged. -/
theorem run_value : θ_run defs (onTc (τ := τ) (main (F := Ideal))) ⟨m, fun _ => 0, ρ⟩ fun r => ∀ c : Dev nD,
      r.2.mem ((c.tc : Thread nD τ).loc main_v4)
        = kerOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.LinAttn.KernelSide

end
-- ==== Proof.RefSide.lean ====
/-
  The reference, read at an index: out(b, n, e) = (Σ_d φ(q(b, n, d)) · Σ_n' φ(k(b, n', d)) · v(b, n', e)) / 524288.
-/
import proofs.«158259_j19232863551966_2_alg».proof.Proof.Gen.ReferenceIdeal.Read
import proofs.«158259_j19232863551966_2_alg».proof.Proof.Spec

noncomputable section

open scoped BigOperators

namespace Cert.LinAttn.RefSide

open Cert.ReferenceIdeal Cert.ReferenceIdeal.Read Idealize.ShloMosaic Idealize.ShloMosaic.ValueIdx Cert.LinAttn

/-- The reference's result as a function of the three argument arrays: batch by batch, `refRow`. -/
def refOut (q k v : S16x8192x64.Idx → Ideal .f32) : S16x8192x64.Idx → Ideal .f32 :=
  fun i => refRow (fun n d => q (ix3 (i 0) n d)) (fun n d => k (ix3 (i 0) n d)) (fun n d => v (ix3 (i 0) n d)) (i 1) (i 2)

/-- The reference's feature map of q is φ, entry by entry; -/
theorem feature_q (q : (⟨S16x8192x64, .f32⟩ : BufTy).Contents (Elt Ideal)) (j : S16x8192x64.Idx) :
    val_main_v7 (F := Ideal) q j = phi (q j) := by
  rw [val_main_v7_apply, val_main_v1_apply, val_main_v3_apply, val_main_v6_apply, val_main_v5_apply,
    val_main_v0_apply, val_main_v2_apply, val_main_v4_apply]
  rfl

/-- and so is its feature map of k. -/
theorem feature_k (k : (⟨S16x8192x64, .f32⟩ : BufTy).Contents (Elt Ideal)) (j : S16x8192x64.Idx) :
    val_main_v15 (F := Ideal) k j = phi (k j) := by
  rw [val_main_v15_apply, val_main_v9_apply, val_main_v11_apply, val_main_v14_apply, val_main_v13_apply,
    val_main_v8_apply, val_main_v10_apply, val_main_v12_apply]
  rfl

theorem l17 (b : Fin 16) (n : Fin 8192) (e d : Fin 64) : lidx_main_v17 (ix3 b n e) d = ix3 b n d :=
  funext fun a => match a with | ⟨0, _⟩ => rfl | ⟨1, _⟩ => rfl | ⟨2, _⟩ => rfl
theorem r17 (b : Fin 16) (n : Fin 8192) (e d : Fin 64) : ridx_main_v17 (ix3 b n e) d = ix3 b d e :=
  funext fun a => match a with | ⟨0, _⟩ => rfl | ⟨1, _⟩ => rfl | ⟨2, _⟩ => rfl
theorem l16 (b : Fin 16) (d e : Fin 64) (n : Fin 8192) : lidx_main_v16 (ix3 b d e) n = ix3 b n d :=
  funext fun a => match a with | ⟨0, _⟩ => rfl | ⟨1, _⟩ => rfl | ⟨2, _⟩ => rfl
theorem r16 (b : Fin 16) (d e : Fin 64) (n : Fin 8192) : ridx_main_v16 (ix3 b d e) n = ix3 b n e :=
  funext fun a => match a with | ⟨0, _⟩ => rfl | ⟨1, _⟩ => rfl | ⟨2, _⟩ => rfl

/-- THE REFERENCE's last stage is `refOut` of the arguments. -/
theorem ref_eq (q k v : (⟨S16x8192x64, .f32⟩ : BufTy).Contents (Elt Ideal)) :
    val_main_v19 (F := Ideal) q k v = refOut q k v := by
  funext i
  obtain ⟨b, n, e, rfl⟩ : ∃ (b : Fin 16) (n : Fin 8192) (e : Fin 64), i = ix3 b n e := ⟨i 0, i 1, i 2, eq_ix3 i⟩
  rw [val_main_v19_apply, val_main_v17_apply, val_main_v18_apply, val_main_cst_5_apply]
  unfold refOut refRow
  show Ideal.div (∑ d : Fin 64, val_main_v7 (F := Ideal) q (lidx_main_v17 (ix3 b n e) d) * val_main_v16 (F := Ideal) k v (ridx_main_v17 (ix3 b n e) d)) den = _
  refine congrArg (fun s => Ideal.div s den) (Finset.sum_congr rfl fun d _ => ?_)
  rw [feature_q, val_main_v16_apply, l17, r17]
  refine congrArg (fun s => phi (q (ix3 b n d)) * s) (Finset.sum_congr rfl fun n' _ => ?_)
  rw [feature_k, l16, r16]

end Cert.LinAttn.RefSide

end
-- ==== Proof.lean ====
/-
  Linear attention with the feature map φ(x) = elu(x) + 1 over f32[16, 8192, 64]: a kernel on the packed
  [16, 4096, 128] layout against jnp's two einsums.

  At the extended reals both programs compute, per batch, out(n, e) = (Σ_d φ(q(n, d)) · Σ_n' φ(k(n', d)) · v(n', e)) / 2^19.
  The reference does so literally (Proof/RefSide.lean, over its generated run). The kernel packs two rows into one
  128-lane row, accumulates the 128 × 128 product of the packed φ(k) and v in four chunks, adds that matrix rotated by
  half a side along both axes, keeps its two diagonal 64 × 64 blocks — each then holds the full 64 × 64 sum over all
  8192 rows —, multiplies the packed φ(q) by it and scales by 2^-19 (Proof/KernelPieces.lean, KernelMatrix.lean,
  KernelBlock.lean: the body at an index; KernelArray.lean: the blocks tile the packed output; KernelRun.lean: the
  host's reshapes around the region). The two are one function by re-indexing the sums — a lane is a pair (half,
  column), a row a pair (packed row, half) — with x · 0 = 0 for the masked entries and the exact quotient by 2^19
  being the product with 2^-19 (Proof/Algebra.lean); no law used needs the inputs finite.
  The three frames are the generated ones; nothing was rewritten by the idealization, so `preserves` is trivial.
-/
import proofs.«158259_j19232863551966_2_alg».proof.Defs
import proofs.«158259_j19232863551966_2_alg».proof.Proof.Gen.Kernel
import proofs.«158259_j19232863551966_2_alg».proof.Proof.Gen.Kernel.Skeleton
import proofs.«158259_j19232863551966_2_alg».proof.Proof.Gen.Kernel.Launch
import proofs.«158259_j19232863551966_2_alg».proof.Proof.Gen.Kernel.Points
import proofs.«158259_j19232863551966_2_alg».proof.Proof.Gen.Kernel.Frame
import proofs.«158259_j19232863551966_2_alg».proof.Proof.Gen.KernelIdeal
import proofs.«158259_j19232863551966_2_alg».proof.Proof.Gen.KernelIdeal.Skeleton
import proofs.«158259_j19232863551966_2_alg».proof.Proof.Gen.KernelIdeal.Launch
import proofs.«158259_j19232863551966_2_alg».proof.Proof.Gen.KernelIdeal.Points
import proofs.«158259_j19232863551966_2_alg».proof.Proof.Gen.KernelIdeal.Frame
import proofs.«158259_j19232863551966_2_alg».proof.Proof.Gen.ReferenceIdeal
import proofs.«158259_j19232863551966_2_alg».proof.Proof.Gen.ReferenceIdeal.Run
import proofs.«158259_j19232863551966_2_alg».proof.Proof.Gen.ReferenceIdeal.Read
import proofs.«158259_j19232863551966_2_alg».proof.Proof.Gen.Pre_finite_inputs
import proofs.«158259_j19232863551966_2_alg».proof.Proof.KernelRun
import proofs.«158259_j19232863551966_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's function of arguments that agree. -/
theorem algebraic : Cert.algebraic_KernelIdeal_ReferenceIdeal := by
  intro m ρ m' ρ' _ hagree
  refine ⟨_, Cert.LinAttn.KernelSide.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.LinAttn.RefSide.ref_eq, (hagree c).1, (hagree c).2.1, (hagree c).2.2,
    Cert.LinAttn.KernelSide.kerOut_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
